-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x4x1024x768 : Shape := ⟨4, ![8, 4, 1024, 768]⟩
abbrev S768x512 : Shape := ⟨2, ![768, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x4x1024x768 : S_.BroadcastsInDim S8x4x1024x768 (![] : Fin 0 → Fin S8x4x1024x768.rank)
  reducesTo_S8x4x1024x768_S_d0_1_2_3 : S8x4x1024x768.ReducesTo [0, 1, 2, 3] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x1024x512 .f32) (main_arg1 : FVec F S8x4x1024x768 .f32) (main_arg2 : FVec F S768x512 .f32) (main_arg3 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x4x1024x768 .f32 := Host.absf main_arg1
  let main_cst_0 : FVec F S_ .f32 := constant S_ .f32 0x7F800000#32
  let main_v5 : FVec F S8x4x1024x768 .f32 := broadcastInDim S8x4x1024x768 ![] bcast_S_S8x4x1024x768 main_cst_0
  let main_v6 : IVec S8x4x1024x768 1 := cmpf .olt main_v4 main_v5
  let main_c_1 : IVec S_ 1 := constantI S_ 1 1#1
  let main_v7 : IVec S_ 1 := (fun x v => Host.reduce IntOp.andi x v reducesTo_S8x4x1024x768_S_d0_1_2_3 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x1024x512 : Shape := ⟨3, ![8, 1024, 512]⟩
abbrev S8x4x1024x768 : Shape := ⟨4, ![8, 4, 1024, 768]⟩
abbrev S768x512 : Shape := ⟨2, ![768, 512]⟩
abbrev S512 : Shape := ⟨1, ![512]⟩
abbrev S8x4096x768 : Shape := ⟨3, ![8, 4096, 768]⟩
abbrev S1x4096x768 : Shape := ⟨3, ![1, 4096, 768]⟩
abbrev S1x256x512 : Shape := ⟨3, ![1, 256, 512]⟩
abbrev S4096x512 : Shape := ⟨2, ![4096, 512]⟩
abbrev S4096x768 : Shape := ⟨2, ![4096, 768]⟩
abbrev S1x512 : Shape := ⟨2, ![1, 512]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x1024x512, .f32⟩
  | .hbm, ⟨1, _⟩ => ⟨S8x4x1024x768, .f32⟩
  | .hbm, ⟨2, _⟩ => ⟨S768x512, .f32⟩
  | .hbm, ⟨3, _⟩ => ⟨S512, .f32⟩
  | .hbm, ⟨4, _⟩ => ⟨S8x4096x768, .f32⟩
  | .hbm, ⟨5, _⟩ => ⟨S8x1024x512, .f32⟩
  | .local _ .vmem, ⟨0, _⟩ => ⟨S1x4096x768, .f32⟩
  | .local _ .vmem, ⟨1, _⟩ => ⟨S1x4096x768, .f32⟩
  | .local _ .vmem, ⟨2, _⟩ => ⟨S1x256x512, .f32⟩
  | .local _ .vmem, ⟨3, _⟩ => ⟨S1x256x512, .f32⟩
  | .local _ .vmem, ⟨4, _⟩ => ⟨S768x512, .f32⟩
  | .local _ .vmem, ⟨5, _⟩ => ⟨S512, .f32⟩
  | .local _ .vmem, ⟨6, _⟩ => ⟨S1x256x512, .f32⟩
  | .local _ .vmem, ⟨7, _⟩ => ⟨S1x256x512, .f32⟩
  | .local _ .vmem, ⟨8, _⟩ => ⟨S4096x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x4x1024x768_S8x4096x768 : S8x4x1024x768.ShapeCasts S8x4096x768
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  inb_S768x512_S768x512_0_0 : ∀ a, (![0, 0] : Fin 2 → Nat) a + S768x512.size a ≤ S768x512.size a
  h_S768x512 : 0 < S768x512.numel
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  shapeCasts_S256x512_S1x256x512 : S256x512.ShapeCasts S1x256x512
  dot_S4096x768_S768x512_S4096x512_1_0_0_1_n_n_wf : DotDims.WF S4096x768 S768x512 S4096x512 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x768.size a ≤ S8x4096x768.size a
  hwx0_0 : ∀ i : grid0.Coords, EltTy.bits .f32 = 32 ∨ (Rect.block (s := S8x4096x768) S1x4096x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x1024x512.size a
  hwx0_1 : ∀ i : grid0.Coords, EltTy.bits .f32 = 32 ∨ (Rect.block (s := S8x1024x512) S1x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .f32 = 32 ∨ (Rect.block (s := S768x512) S768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S8x1024x512.size a
  hwx0_4 : ∀ i : grid0.Coords, EltTy.bits .f32 = 32 ∨ (Rect.block (s := S8x1024x512) S1x256x512.size (cc0_transform_4 i) (hinb0_4 i)).WholeWords (EltTy.packing .f32)

variable [Facts₀]

def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v0) S1x4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S8x4x1024x768 : Shape := ⟨4, ![8, 4, 1024, 768]⟩
abbrev S768x512 : Shape := ⟨2, ![768, 512]⟩
abbrev S512 : Shape := ⟨1, ![512]⟩
abbrev S8x4x1024x512 : Shape := ⟨4, ![8, 4, 1024, 512]⟩
abbrev S1x1x1x512 : Shape := ⟨4, ![1, 1, 1, 512]⟩
abbrev S8x4096x512 : Shape := ⟨3, ![8, 4096, 512]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x4x1024x768, .f32⟩
  | .hbm, ⟨2, _⟩ => ⟨S768x512, .f32⟩
  | .hbm, ⟨3, _⟩ => ⟨S512, .f32⟩
  | .hbm, ⟨4, _⟩ => ⟨S8x4x1024x512, .f32⟩
  | .hbm, ⟨5, _⟩ => ⟨S1x1x1x512, .f32⟩
  | .hbm, ⟨6, _⟩ => ⟨S8x4x1024x512, .f32⟩
  | .hbm, ⟨7, _⟩ => ⟨S8x4x1024x512, .f32⟩
  | .hbm, ⟨8, _⟩ => ⟨S8x4096x512, .f32⟩
  | .hbm, ⟨9, _⟩ => ⟨S8x1024x4096, .f32⟩
  | .hbm, ⟨10, _⟩ => ⟨S_, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024x1, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | .hbm, ⟨19, _⟩ => ⟨S_, .f32⟩
  | .hbm, ⟨20, _⟩ => ⟨S8x1024, .f32⟩
  | .hbm, ⟨21, _⟩ => ⟨S8x1024x1, .f32⟩
  | .hbm, ⟨22, _⟩ => ⟨S8x1024x4096, .f32⟩
  | .hbm, ⟨23, _⟩ => ⟨S8x1024x4096, .f32⟩
  | .hbm, ⟨24, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x4x1024x512_0_1_2_3 : S1x1x1x512.BroadcastsInDim S8x4x1024x512 (![0, 1, 2, 3] : Fin 4 → Fin S8x4x1024x512.rank)
  shapeCasts_S8x4x1024x512_S8x4096x512 : S8x4x1024x512.ShapeCasts S8x4096x512
  reducesTo_S8x1024x4096_S8x1024_d2 : S8x1024x4096.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x4096_0_1_2 : S8x1024x1.BroadcastsInDim S8x1024x4096 (![0, 1, 2] : Fin 3 → Fin S8x1024x4096.rank)
  dot_S8x4x1024x768_S768x512_S8x4x1024x512_3_0_012_1_n_n_wf : DotDims.WF S8x4x1024x768 S768x512 S8x4x1024x512 [3] [0] [0, 1, 2] [1] [] []
  dot_S8x1024x512_S8x4096x512_S8x1024x4096_2_2_1_1_0_0_wf : DotDims.WF S8x1024x512 S8x4096x512 S8x1024x4096 [2] [2] [1] [1] [0] [0]
  dot_S8x1024x4096_S8x4096x512_S8x1024x512_2_1_1_2_0_0_wf : DotDims.WF S8x1024x4096 S8x4096x512 S8x1024x512 [2] [1] [1] [2] [0] [0]

variable [Facts₀]

def dot_S8x4x1024x768_S768x512_S8x4x1024x512_3_0_012_1_n_n : DotDims S8x4x1024x768 S768x512 S8x4x1024x512 where
  lhsContracting := [3]
  rhsContracting := [0]
  lhsNonContracting := [0, 1, 2]
  rhsNonContracting := [1]
  lhsBatch := []
  rhsBatch := []
  wf := dot_S8x4x1024x768_S768x512_S8x4x1024x512_3_0_012_1_n_n_wf
def dot_S8x1024x512_S8x4096x512_S8x1024x4096_2_2_1_1_0_0 : DotDims S8x1024x512 S8x4096x512 S8x1024x4096 where
  lhsContracting := [2]
  rhsContracting := [2]
  lhsNonContracting := [1]
  rhsNonContracting := [1]
  lhsBatch := [0]
  rhsBatch := [0]
  wf := dot_S8x1024x512_S8x4096x512_S8x1024x4096_2_2_1_1_0_0_wf
def dot_S8x1024x4096_S8x4096x512_S8x1024x512_2_1_1_2_0_0 : DotDims S8x1024x4096 S8x4096x512 S8x1024x512 where
  lhsContracting := [2]
  rhsContracting := [1]
  lhsNonContracting := [1]
  rhsNonContracting := [2]
  lhsBatch := [0]
  rhsBatch := [0]
  wf := dot_S8x1024x4096_S8x4096x512_S8x1024x512_2_1_1_2_0_0_wf

class Facts : Prop extends Facts₀ where

variable [Facts]
-- ==== Proof.Stores.lean ====
/-
  What the kernel body's stores leave behind, in each of its two control cases, as values of the loaded blocks.

  At the first query tile of a batch the body stores the projection of the caption block into the scratch, reads the
  scratch back, and stores the attended tile computed from what it read back: the scratch ends at the projection
  (`scratch_A`) and the output tile at the attended rows over that same projection (`out_A`). At the other tiles the
  body stores nothing into the scratch, and the output tile is the attended rows over what the scratch already
  held (`out_B`). Every load and store is of a whole buffer, so a store leaves exactly its value and a load reads
  exactly the contents.
-/
import proofs.«160325_j6957847019570_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stores

open Cert.KernelIdeal Cert.KernelIdeal.Gen

variable {F : FTy → Type} [FloatOps F]

/-- The all-zero offsets of a whole-buffer access, at ranks 2, 1 and 3. -/
theorem hz2 : (![0, 0] : Fin 2 → Nat) = fun _ => 0 := funext fun a => by fin_cases a <;> rfl
theorem hz1 : (![0] : Fin 1 → Nat) = fun _ => 0 := funext fun a => by fin_cases a; rfl
theorem hz3 : (![0, 0, 0] : Fin 3 → Nat) = fun _ => 0 := funext fun a => by fin_cases a <;> rfl

/-- First tile of a batch: the scratch ends holding the projection of the caption block. -/
theorem scratch_A (c : Dev nD) (i : grid0.Coords) (arg2 : Memref sig .tc .vmem S1x4096x768 .f32) (harg2 : arg2.IsWhole) (arg3 : Memref sig .tc .vmem S1x256x512 .f32) (harg3 : arg3.IsWhole) (arg4 : Memref sig .tc .vmem S768x512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S4096x512 .f32) (harg7 : arg7.IsWhole) (hc0 : cond0_0 i)
    (x0 : Vec F S1x4096x768 .f32) (x1 : Vec F S1x256x512 .f32) (x2 : Vec F S768x512 .f32) (x3 : Vec F S512 .f32) :
    sout0_A_0 c i arg2 harg2 arg3 harg3 arg4 harg4 arg5 harg5 arg6 harg6 arg7 harg7 hc0 x0 x1 x2 x3 = k0_pay1 x0 x2 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg4.read_unread, harg5.read_unread,
    View.ld_unit_zero (S := S1x4096x768) hz3, View.ld_unit_zero (S := S768x512) hz2, View.ld_unit_zero (S := S512) hz1]

/-- First tile of a batch: the output tile is attended over the projection just stored and read back. -/
theorem out_A (c : Dev nD) (i : grid0.Coords) (arg2 : Memref sig .tc .vmem S1x4096x768 .f32) (harg2 : arg2.IsWhole) (arg3 : Memref sig .tc .vmem S1x256x512 .f32) (harg3 : arg3.IsWhole) (arg4 : Memref sig .tc .vmem S768x512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S4096x512 .f32) (harg7 : arg7.IsWhole) (hc0 : cond0_0 i)
    (x0 : Vec F S1x4096x768 .f32) (x1 : Vec F S1x256x512 .f32) (x2 : Vec F S768x512 .f32) (x3 : Vec F S512 .f32) :
    out0_A_4 c i arg2 harg2 arg3 harg3 arg4 harg4 arg5 harg5 arg6 harg6 arg7 harg7 hc0 x0 x1 x2 x3 = k0_pay2 x1 (k0_pay1 x0 x2 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3, View.readCov_unit_zero (S := S4096x512) _ hz2]
  simp only [View.readAt_eq_ld, harg2.read_unread, harg3.read_unread, harg4.read_unread, harg5.read_unread,
    View.ld_unit_zero (S := S1x4096x768) hz3, View.ld_unit_zero (S := S1x256x512) hz3, View.ld_unit_zero (S := S768x512) hz2,
    View.ld_unit_zero (S := S512) hz1]

/-- Any other tile: the output tile is attended over what the scratch held on entry. -/
theorem out_B (c : Dev nD) (i : grid0.Coords) (arg2 : Memref sig .tc .vmem S1x4096x768 .f32) (harg2 : arg2.IsWhole) (arg3 : Memref sig .tc .vmem S1x256x512 .f32) (harg3 : arg3.IsWhole) (arg4 : Memref sig .tc .vmem S768x512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S4096x512 .f32) (harg7 : arg7.IsWhole) (hc0 : ¬cond0_0 i)
    (x0 : Vec F S1x4096x768 .f32) (x1 : Vec F S1x256x512 .f32) (x2 : Vec F S768x512 .f32) (x3 : Vec F S512 .f32) (xs0 : Vec F S4096x512 .f32) :
    out0_B_4 c i arg2 harg2 arg3 harg3 arg4 harg4 arg5 harg5 arg6 harg6 arg7 harg7 hc0 x0 x1 x2 x3 xs0 = k0_pay2 x1 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz3]
  simp only [View.readAt_eq_ld, harg3.read_unread, harg7.read_unread, View.ld_unit_zero (S := S1x256x512) hz3, View.ld_unit_zero (S := S4096x512) hz2]

end Cert.KernelIdeal.Stores

end
-- ==== Proof.Attention.lean ====
/-
  Cross-attention of object rows over projected caption rows, as one function of the four argument arrays on the
  extended reals.

  For a batch `b` the 4·1024 caption rows are projected: key row `l` is `text[b, l / 1024, l % 1024, ·] · W + bias`
  (`keys`). An object row `q` scores every key row by their inner product (`scores`); the scores are shifted by
  their maximum, taken from −∞ (`peak`), exponentiated (`weights`), divided by their sum, and the result row is the
  weighted sum of the key rows (`attend`). `result` is that row at `(b, n)` for every batch and object.

  Nothing here is evaluated: the maximum, the exponential and the quotient are the extended reals' own, the same
  terms on both programs' sides, so no property of them is needed.
-/
import Idealize.ShloMosaic.PureOps.Ideal
import Idealize.ShloMosaic.Lib.ValueIdx

noncomputable section

namespace Cert.Attention

open Idealize.ShloMosaic Idealize.ShloMosaic.ValueIdx

/-- The value both programs start a row's maximum from: the f32 pattern of −∞. -/
abbrev lowest : EReal := Ideal.ofBits .f32 0xFF800000#32

/-- Caption row `l` of the flattened `4 × 1024` rows is row `l % 1024` of caption `l / 1024`. -/
abbrev captionOf (l : Fin 4096) : Fin 4 := ⟨l.val / 1024, by have := l.isLt; omega⟩
abbrev rowOf (l : Fin 4096) : Fin 1024 := ⟨l.val % 1024, Nat.mod_lt _ (by decide)⟩

/-- The projected caption rows of batch `b`: entry `(l, d)` is `∑ₖ text[b, l / 1024, l % 1024, k] · W[k, d] + bias[d]`. -/
def keys (text : (⟨4, ![8, 4, 1024, 768]⟩ : Shape).Idx → EReal) (W : (⟨2, ![768, 512]⟩ : Shape).Idx → EReal)
    (bias : (⟨1, ![512]⟩ : Shape).Idx → EReal) (b : Fin 8) (l : Fin 4096) (d : Fin 512) : EReal :=
  (∑ k : Fin 768, text (ix4 b (captionOf l) (rowOf l) k) * W (ix2 k d)) + bias (ix1 d)

/-- The score of key row `l` against the query row `q`: their inner product. -/
def scores (q : Fin 512 → EReal) (K : Fin 4096 → Fin 512 → EReal) (l : Fin 4096) : EReal :=
  ∑ e : Fin 512, q e * K l e

/-- The largest score, from −∞. -/
def peak (s : Fin 4096 → EReal) : EReal := Finset.univ.fold max lowest s

/-- The unnormalised weight of key row `l`: the exponential of its score less the largest. -/
def weights (s : Fin 4096 → EReal) (l : Fin 4096) : EReal := Ideal.exp (s l - peak s)

/-- The attended row: the key rows summed with their weights over the weights' sum. -/
def attend (q : Fin 512 → EReal) (K : Fin 4096 → Fin 512 → EReal) (d : Fin 512) : EReal :=
  ∑ l : Fin 4096, Ideal.div (weights (scores q K) l) (∑ l' : Fin 4096, weights (scores q K) l') * K l d

/-- The whole result: at `(b, n, d)`, object row `n` of batch `b` attended over that batch's projected caption rows. -/
def result (obj : (⟨3, ![8, 1024, 512]⟩ : Shape).Idx → EReal) (text : (⟨4, ![8, 4, 1024, 768]⟩ : Shape).Idx → EReal)
    (W : (⟨2, ![768, 512]⟩ : Shape).Idx → EReal) (bias : (⟨1, ![512]⟩ : Shape).Idx → EReal) :
    (⟨3, ![8, 1024, 512]⟩ : Shape).Idx → EReal :=
  fun i => attend (fun e => obj (ix3 (i 0) (i 1) e)) (keys text W bias (i 0)) (i 2)

end Cert.Attention

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.Payload.lean ====
/-
  The two stored values of the kernel body, read entry by entry on the extended reals.

  The first store (taken at the first query tile of a batch) holds the projected caption rows: entry `(l, d)` is
  `∑ₖ x[0, l, k] · W[k, d] + bias[d]` of the loaded caption block `x` (`projected_apply`). The second store holds, for
  the loaded tile of 256 object rows and the 4096 × 512 matrix `T` of projected rows it reads back, the attended rows:
  row `r` scores the rows of `T` by inner products, shifts the scores by their maximum, exponentiates, divides by the
  sum and sums the rows of `T` with these quotients (`attended_apply`) — `Attention.attend` of object row `r` and `T`.
  The narrowing of the quotients and of `T` to bf16 before the last product is the identity on the extended reals.

  Each matrix product into a zero accumulator is a sum over the contracted coordinate; each row reduction is a sum
  (or a fold of `max`) over the lanes of the row; a row statistic is put back on the row's lanes by a cast to a
  column and a broadcast.
-/
import proofs.«160325_j6957847019570_2_alg».proof.Proof.Gen.KernelIdeal.Skeleton
import proofs.«160325_j6957847019570_2_alg».proof.Proof.Attention
import proofs.«160325_j6957847019570_2_alg».proof.Proof.LibKeepdims
import Idealize.ShloMosaic.PureOps.Ideal.Laws
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Idealize.ShloMosaic.Keepdims
open Cert.Attention

/-! ## The three matrix products' operand indices -/

theorem lhsA_0 (i : S4096x512.Idx) (q : dot_S4096x768_S768x512_S4096x512_1_0_0_1_n_n.contr.Idx) : (dot_S4096x768_S768x512_S4096x512_1_0_0_1_n_n.lhsIdx i q 0).val = (i 0).val := by
  unfold DotDims.lhsIdx
  rw [dif_neg (show ¬(0 : Fin S4096x768.rank) ∈ dot_S4096x768_S768x512_S4096x512_1_0_0_1_n_n.lhsBatch by decide), dif_pos (show (0 : Fin S4096x768.rank) ∈ dot_S4096x768_S768x512_S4096x512_1_0_0_1_n_n.lhsNonContracting by decide)]
  rfl
theorem lhsA_1 (i : S4096x512.Idx) (q : dot_S4096x768_S768x512_S4096x512_1_0_0_1_n_n.contr.Idx) : (dot_S4096x768_S768x512_S4096x512_1_0_0_1_n_n.lhsIdx i q 1).val = (q ⟨0, by decide⟩).val :=
  dot_S4096x768_S768x512_S4096x512_1_0_0_1_n_n.lhsIdx_val_of_single rfl i q
theorem rhsA_0 (i : S4096x512.Idx) (q : dot_S4096x768_S768x512_S4096x512_1_0_0_1_n_n.contr.Idx) : (dot_S4096x768_S768x512_S4096x512_1_0_0_1_n_n.rhsIdx i q 0).val = (q ⟨0, by decide⟩).val :=
  dot_S4096x768_S768x512_S4096x512_1_0_0_1_n_n.rhsIdx_val_of_single rfl i q
theorem rhsA_1 (i : S4096x512.Idx) (q : dot_S4096x768_S768x512_S4096x512_1_0_0_1_n_n.contr.Idx) : (dot_S4096x768_S768x512_S4096x512_1_0_0_1_n_n.rhsIdx i q 1).val = (i 1).val := by
  unfold DotDims.rhsIdx
  rw [dif_neg (show ¬(1 : Fin S768x512.rank) ∈ dot_S4096x768_S768x512_S4096x512_1_0_0_1_n_n.rhsBatch by decide), dif_pos (show (1 : Fin S768x512.rank) ∈ dot_S4096x768_S768x512_S4096x512_1_0_0_1_n_n.rhsNonContracting by decide)]
  rfl

theorem lhsB_0 (i : S256x4096.Idx) (q : dot_S256x512_S4096x512_S256x4096_1_1_0_0_n_n.contr.Idx) : (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhsB_1 (i : S256x4096.Idx) (q : dot_S256x512_S4096x512_S256x4096_1_1_0_0_n_n.contr.Idx) : (dot_S256x512_S4096x512_S256x4096_1_1_0_0_n_n.lhsIdx i q 1).val = (q ⟨0, by decide⟩).val :=
  dot_S256x512_S4096x512_S256x4096_1_1_0_0_n_n.lhsIdx_val_of_single rfl i q
theorem rhsB_1 (i : S256x4096.Idx) (q : dot_S256x512_S4096x512_S256x4096_1_1_0_0_n_n.contr.Idx) : (dot_S256x512_S4096x512_S256x4096_1_1_0_0_n_n.rhsIdx i q 1).val = (q ⟨0, by decide⟩).val :=
  dot_S256x512_S4096x512_S256x4096_1_1_0_0_n_n.rhsIdx_val_of_single rfl i q
theorem rhsB_0 (i : S256x4096.Idx) (q : dot_S256x512_S4096x512_S256x4096_1_1_0_0_n_n.contr.Idx) : (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl

theorem lhsC_0 (i : S256x512.Idx) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhsC_1 (i : S256x512.Idx) (q : dot_S256x4096_S4096x512_S256x512_1_0_0_1_n_n.contr.Idx) : (dot_S256x4096_S4096x512_S256x512_1_0_0_1_n_n.lhsIdx i q 1).val = (q ⟨0, by decide⟩).val :=
  dot_S256x4096_S4096x512_S256x512_1_0_0_1_n_n.lhsIdx_val_of_single rfl i q
theorem rhsC_0 (i : S256x512.Idx) (q : dot_S256x4096_S4096x512_S256x512_1_0_0_1_n_n.contr.Idx) : (dot_S256x4096_S4096x512_S256x512_1_0_0_1_n_n.rhsIdx i q 0).val = (q ⟨0, by decide⟩).val :=
  dot_S256x4096_S4096x512_S256x512_1_0_0_1_n_n.rhsIdx_val_of_single rfl i q
theorem rhsC_1 (i : S256x512.Idx) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Rows times columns: `(X · Y)[l, d] = ∑ₖ X[l, k] · Y[k, d]`, into the zero accumulator. -/
theorem rowsCols_apply (prec : Option ContractPrecision) (X : FVec Ideal S4096x768 .f32) (Y : FVec Ideal S768x512 .f32)
    (l : Fin 4096) (d : Fin 512) :
    matmul dot_S4096x768_S768x512_S4096x512_1_0_0_1_n_n prec X Y (constant S4096x512 .f32 0x00000000#32) (ix2 l d)
      = ∑ k : Fin 768, X (ix2 l k) * Y (ix2 k d) := by
  simp only [matmul]
  rw [Ideal.matmul_constant_zero_apply, ← Equiv.sum_comp (contrEquiv1 dot_S4096x768_S768x512_S4096x512_1_0_0_1_n_n 768 rfl rfl).symm]
  refine Finset.sum_congr rfl fun k _ => ?_
  have hk := contrEquiv1_symm_val dot_S4096x768_S768x512_S4096x512_1_0_0_1_n_n 768 rfl rfl k
  have el : dot_S4096x768_S768x512_S4096x512_1_0_0_1_n_n.lhsIdx (ix2 l d) ((contrEquiv1 dot_S4096x768_S768x512_S4096x512_1_0_0_1_n_n 768 rfl rfl).symm k) = ix2 l k := funext fun a => Fin.ext (by
    match a with
    | ⟨0, _⟩ => exact lhsA_0 _ _
    | ⟨1, _⟩ => exact (lhsA_1 _ _).trans hk)
  have er : dot_S4096x768_S768x512_S4096x512_1_0_0_1_n_n.rhsIdx (ix2 l d) ((contrEquiv1 dot_S4096x768_S768x512_S4096x512_1_0_0_1_n_n 768 rfl rfl).symm k) = ix2 k d := funext fun a => Fin.ext (by
    match a with
    | ⟨0, _⟩ => exact (rhsA_0 _ _).trans hk
    | ⟨1, _⟩ => exact rhsA_1 _ _)
  rw [el, er]

/-- Rows times rows: `(Q · Tᵀ)[r, l] = ∑ₑ Q[r, e] · T[l, e]`, into the zero accumulator. -/
theorem rowsRows_apply (prec : Option ContractPrecision) (Q : FVec Ideal S256x512 .f32) (T : FVec Ideal S4096x512 .f32)
    (r : Fin 256) (l : Fin 4096) :
    matmul dot_S256x512_S4096x512_S256x4096_1_1_0_0_n_n prec Q T (constant S256x4096 .f32 0x00000000#32) (ix2 r l)
      = ∑ e : Fin 512, Q (ix2 r e) * T (ix2 l e) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 r l) ((contrEquiv1 dot_S256x512_S4096x512_S256x4096_1_1_0_0_n_n 512 rfl rfl).symm k) = ix2 r k := funext fun a => Fin.ext (by
    match a with
    | ⟨0, _⟩ => exact lhsB_0 _ _
    | ⟨1, _⟩ => exact (lhsB_1 _ _).trans hk)
  have er : dot_S256x512_S4096x512_S256x4096_1_1_0_0_n_n.rhsIdx (ix2 r l) ((contrEquiv1 dot_S256x512_S4096x512_S256x4096_1_1_0_0_n_n 512 rfl rfl).symm k) = ix2 l k := funext fun a => Fin.ext (by
    match a with
    | ⟨0, _⟩ => exact rhsB_0 _ _
    | ⟨1, _⟩ => exact (rhsB_1 _ _).trans hk)
  rw [el, er]

/-- Weights times rows: `(A · T)[r, d] = ∑ₗ A[r, l] · T[l, d]`, bf16 operands into the zero f32 accumulator. -/
theorem weightsRows_apply (prec : Option ContractPrecision) (A : FVec Ideal S256x4096 .bf16) (T : FVec Ideal S4096x512 .bf16)
    (r : Fin 256) (d : Fin 512) :
    matmul dot_S256x4096_S4096x512_S256x512_1_0_0_1_n_n prec A T (constant S256x512 .f32 0x00000000#32) (ix2 r d)
      = ∑ l : Fin 4096, A (ix2 r l) * T (ix2 l d) := by
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 r d) ((contrEquiv1 dot_S256x4096_S4096x512_S256x512_1_0_0_1_n_n 4096 rfl rfl).symm k) = ix2 r k := funext fun a => Fin.ext (by
    match a with
    | ⟨0, _⟩ => exact lhsC_0 _ _
    | ⟨1, _⟩ => exact (lhsC_1 _ _).trans hk)
  have er : dot_S256x4096_S4096x512_S256x512_1_0_0_1_n_n.rhsIdx (ix2 r d) ((contrEquiv1 dot_S256x4096_S4096x512_S256x512_1_0_0_1_n_n 4096 rfl rfl).symm k) = ix2 k d := funext fun a => Fin.ext (by
    match a with
    | ⟨0, _⟩ => exact (rhsC_0 _ _).trans hk
    | ⟨1, _⟩ => exact rhsC_1 _ _)
  rw [el, er]

/-! ## The projected caption rows -/

/-- The first store's value at `(l, d)`: the caption block's row `l` times column `d` of `W`, plus `bias[d]`. -/
theorem projected_apply (x : FVec Ideal S1x4096x768 .f32) (W : FVec Ideal S768x512 .f32) (bias : FVec Ideal S512 .f32)
    (l : Fin 4096) (d : Fin 512) :
    k0_pay1 (F := Ideal) x W bias (ix2 l d)
      = (∑ k : Fin 768, x (ix3 (0 : Fin 1) l k) * W (ix2 k d)) + bias (ix1 d) := by
  unfold k0_pay1
  rw [shapeCast_self]
  show (matmul (F := Ideal) dot_S4096x768_S768x512_S4096x512_1_0_0_1_n_n (some .fp32) (shapeCast S4096x768 x shapeCasts_S1x4096x768_S4096x768) W (constant S4096x512 .f32 0x00000000#32) (ix2 l d) : EReal)
      + broadcastTo S4096x512 (shapeCast S1x512 bias shapeCasts_S512_S1x512) broadcasts_S1x512_S4096x512 (ix2 l d) = _
  rw [rowsCols_apply, broadcastTo_1b_ab_apply, shapeCast_a_1a_apply]
  refine congrArg (· + bias (ix1 d)) (Finset.sum_congr rfl fun k _ => ?_)
  rw [shapeCast_1ab_ab_apply]

/-! ## The attended rows, stage by stage -/

/-- The scores of the tile's rows against the rows of `T`. -/
def scoreTile (q : FVec Ideal S1x256x512 .f32) (T : FVec Ideal S4096x512 .f32) : FVec Ideal S256x4096 .f32 :=
  matmul dot_S256x512_S4096x512_S256x4096_1_1_0_0_n_n (some .fp32) (shapeCast S256x512 q shapeCasts_S1x256x512_S256x512) T (constant S256x4096 .f32 0x00000000#32)

/-- A row statistic put back on the 4096 lanes of its row. -/
def onLanes (v : FVec Ideal S256 .f32) : FVec Ideal S256x4096 .f32 :=
  broadcastTo S256x4096 (shapeCast S256x1 v shapeCasts_S256_S256x1) broadcasts_S256x1_S256x4096

/-- Each row's largest score, from −∞. -/
def peakTile (L : FVec Ideal S256x4096 .f32) : FVec Ideal S256 .f32 :=
  multiReduction .maximumf [1] S256 L 0xFF800000#32 reduces_S256x4096_S256 (.inl rfl) rfl

/-- The exponentials of the scores less their row's largest. -/
def weightTile (L : FVec Ideal S256x4096 .f32) : FVec Ideal S256x4096 .f32 := exp (subf L (onLanes (peakTile L)))

/-- Each row's sum of weights. -/
def massTile (E : FVec Ideal S256x4096 .f32) : FVec Ideal S256 .f32 :=
  multiReduction .add [1] S256 E 0x00000000#32 reduces_S256x4096_S256 (.inl rfl) rfl

/-- The weights over their row's sum. -/
def shareTile (E : FVec Ideal S256x4096 .f32) : FVec Ideal S256x4096 .f32 := divf E (onLanes (massTile E))

/-- The rows of `T` summed with a tile of shares, as the block the body stores. -/
def mixTile (A : FVec Ideal S256x4096 .f32) (T : FVec Ideal S4096x512 .f32) : FVec Ideal S1x256x512 .f32 :=
  shapeCast S1x256x512
    (matmul dot_S256x4096_S4096x512_S256x512_1_0_0_1_n_n none (truncf .bf16 A bitsLt_bf16_f32) (truncf .bf16 T bitsLt_bf16_f32) (constant S256x512 .f32 0x00000000#32))
    shapeCasts_S256x512_S1x256x512

/-- The second store's value is these stages composed. -/
theorem attended_eq (q : FVec Ideal S1x256x512 .f32) (T : FVec Ideal S4096x512 .f32) :
    k0_pay2 (F := Ideal) q T = mixTile (shareTile (weightTile (scoreTile q T))) T := by
  unfold k0_pay2 mixTile shareTile weightTile massTile peakTile onLanes scoreTile
  rfl

theorem lift_eq (r : Fin 256) (l : Fin 4096) : reduces_S256x4096_S256.lift (ix1 r) l = ix2 r l :=
  funext fun a => Fin.ext (by match a with | ⟨0, _⟩ => rfl | ⟨1, _⟩ => rfl)

theorem scoreTile_apply (q : FVec Ideal S1x256x512 .f32) (T : FVec Ideal S4096x512 .f32) (r : Fin 256) (l : Fin 4096) :
    scoreTile q T (ix2 r l) = scores (fun e => q (ix3 (0 : Fin 1) r e)) (fun l e => T (ix2 l e)) l := by
  unfold scoreTile scores
  rw [rowsRows_apply]
  refine Finset.sum_congr rfl fun e _ => ?_
  rw [shapeCast_1ab_ab_apply]

theorem onLanes_apply (v : FVec Ideal S256 .f32) (r : Fin 256) (l : Fin 4096) : onLanes v (ix2 r l) = v (ix1 r) :=
  column_apply v shapeCasts_S256_S256x1 broadcasts_S256x1_S256x4096 r l

theorem peakTile_apply (L : FVec Ideal S256x4096 .f32) (r : Fin 256) :
    peakTile L (ix1 r) = peak (fun l => L (ix2 r l)) := by
  refine (Ideal.multiReduction_maximumf_single L 0xFF800000#32 reduces_S256x4096_S256 (.inl rfl) rfl (ix1 r)).trans ?_
  have e : (L ∘ reduces_S256x4096_S256.lift (ix1 r)) = fun l : Fin 4096 => L (ix2 r l) :=
    funext fun l => congrArg L (lift_eq r l)
  exact congrArg (fun f : Fin 4096 → EReal => Finset.univ.fold max lowest f) e

theorem weightTile_apply (L : FVec Ideal S256x4096 .f32) (r : Fin 256) (l : Fin 4096) :
    weightTile L (ix2 r l) = weights (fun l => L (ix2 r l)) l := by
  show Ideal.exp (L (ix2 r l) - onLanes (peakTile L) (ix2 r l)) = _
  rw [onLanes_apply, peakTile_apply]
  rfl

theorem massTile_apply (E : FVec Ideal S256x4096 .f32) (r : Fin 256) :
    massTile E (ix1 r) = ∑ l : Fin 4096, E (ix2 r l) := by
  refine (Ideal.multiReduction_add_single E 0x00000000#32 reduces_S256x4096_S256 (.inl rfl) rfl (ix1 r)).trans ?_
  exact Finset.sum_congr rfl fun l _ => congrArg E (lift_eq r l)

theorem shareTile_apply (E : FVec Ideal S256x4096 .f32) (r : Fin 256) (l : Fin 4096) :
    shareTile E (ix2 r l) = Ideal.div (E (ix2 r l)) (∑ l' : Fin 4096, E (ix2 r l')) := by
  show Ideal.div (E (ix2 r l)) (onLanes (massTile E) (ix2 r l)) = _
  rw [onLanes_apply, massTile_apply]

theorem mixTile_apply (A : FVec Ideal S256x4096 .f32) (T : FVec Ideal S4096x512 .f32) (u : Fin 1) (r : Fin 256) (d : Fin 512) :
    mixTile A T (ix3 u r d) = ∑ l : Fin 4096, A (ix2 r l) * T (ix2 l d) := by
  unfold mixTile
  rw [shapeCast_ab_1ab_apply, weightsRows_apply]
  rfl

/-- The second store's value at `(0, r, d)`: object row `r` of the tile attended over the rows of `T`. -/
theorem attended_apply (q : FVec Ideal S1x256x512 .f32) (T : FVec Ideal S4096x512 .f32) (u : Fin 1) (r : Fin 256) (d : Fin 512) :
    k0_pay2 (F := Ideal) q T (ix3 u r d)
      = attend (fun e => q (ix3 (0 : Fin 1) r e)) (fun l e => T (ix2 l e)) d := by
  rw [attended_eq, mixTile_apply]
  unfold attend
  have hs : (fun l => scoreTile q T (ix2 r l)) = scores (fun e => q (ix3 (0 : Fin 1) r e)) (fun l e => T (ix2 l e)) :=
    funext fun l => scoreTile_apply q T r l
  refine Finset.sum_congr rfl fun l _ => ?_
  rw [shareTile_apply, weightTile_apply, hs]
  refine congrArg (fun z => Ideal.div _ z * _) (Finset.sum_congr rfl fun l' _ => ?_)
  rw [weightTile_apply, hs]

end Cert.KernelIdeal.Payload

end
-- ==== Proof.Blocks.lean ====
/-
  What the kernel's grid points read and leave, on the extended reals.

  The grid is 8 batches × 4 query tiles, point `t` being tile `t % 4` of batch `t / 4`. At point `t` the caption window
  holds the 4096 flattened caption rows of batch `t / 4` (the array the region finds there is the captions re-laid
  from `[8, 4, 1024, 768]` to `[8, 4096, 768]`: flattened row `l` is row `l % 1024` of caption `l / 1024`), the object
  window rows `256 · (t % 4) … 256 · (t % 4) + 255` of batch `t / 4`, and the two remaining windows the whole of `W` and
  of the bias.

  The scratch carried between points holds, after every point `t`, the projected caption rows of batch `t / 4`
  (`scratch_eq`): the first tile of a batch stores them, and the other three tiles leave the scratch as the point
  before left it — and the point before is in the same batch. So at every point the body attends its object tile over
  the projected rows of its own batch (`tile_eq`).
-/
import proofs.«160325_j6957847019570_2_alg».proof.Proof.Gen.KernelIdeal.Value
import proofs.«160325_j6957847019570_2_alg».proof.Proof.Stores
import proofs.«160325_j6957847019570_2_alg».proof.Proof.Payload
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.Stores Cert.KernelIdeal.Payload
open Idealize.ShloMosaic.ValueIdx Cert.Attention

variable (m : (ℓ : Loc nD τ sig) → Buf (Elt Ideal) ℓ)

/-- The batch of point `n` (`n / 4`; the remainder by 8 only makes it a batch for every natural number). -/
abbrev batchOf (n : ℕ) : Fin 8 := ⟨n / 4 % 8, Nat.mod_lt _ (by decide)⟩

/-- The first object row of point `n`'s tile, plus `r`. -/
abbrev objRow (n : ℕ) (r : Fin 256) : Fin 1024 := ⟨n % 4 * 256 + r.val, by have := r.isLt; have := Nat.mod_lt n (show 0 < 4 by decide); omega⟩

/-- The block indices of the five windows at every point, decided over the 32 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## The windows' blocks as entries of the arguments -/

/-- The captions re-laid to `[8, 4096, 768]` read, at `(b, l, k)`, caption `l / 1024`'s row `l % 1024`. -/
theorem flat_apply (x : FVec Ideal S8x4x1024x768 .f32) (b : Fin 8) (l : Fin 4096) (k : Fin 768) :
    shapeCast S8x4096x768 x shapeCasts_S8x4x1024x768_S8x4096x768 (ix3 b l k) = x (ix4 b (captionOf l) (rowOf l) k) :=
  shapeCast_apply x shapeCasts_S8x4x1024x768_S8x4096x768 _ _ (by
    have hb := b.isLt; have hl := l.isLt; have hk := k.isLt
    rw [Shape.rowMajor_val_four, Shape.rowMajor_val_three]
    show ((b.val * 4 + l.val / 1024) * 1024 + l.val % 1024) * 768 + k.val = (b.val * 4096 + l.val) * 768 + k.val
    omega)

/-- The array the caption window is cut from: the captions, re-laid. -/
theorem captions_flat (c : Dev nD) :
    (V m c main_v0 : S8x4096x768.Idx → EReal)
      = shapeCast S8x4096x768 (m ((c : Thread nD τ).loc main_arg1)) shapeCasts_S8x4x1024x768_S8x4096x768 := by
  dsimp only [Gen.V, Gen.hostOps0]; after_results; rfl

theorem caption_blk (c : Dev nD) (t : Fin cfg0.N) (u : Fin 1) (l : Fin 4096) (k : Fin 768) :
    (iblk m c 0 t : FVec Ideal S1x4096x768 .f32) (ix3 u l k)
      = (m ((c : Thread nD τ).loc main_arg1)) (ix4 (batchOf t.val) (captionOf l) (rowOf l) k) := by
  obtain ⟨e0, e1, e2, -⟩ := idx_facts t
  have hN : t.val < 32 := lt_of_lt_of_eq t.isLt (show cfg0.N = 32 from N_0)
  have hu : u.val = 0 := by omega
  unfold iblk
  rw [View.read_apply]
  show V m c main_v0 _ = _
  rw [captions_flat]
  refine Eq.trans (congrArg _ ?_) (flat_apply _ (batchOf t.val) l k)
  funext a
  apply Fin.ext
  match a with
  | ⟨0, _⟩ => show win0_0.index t (0 : Fin 3) * 1 + 1 * u.val = t.val / 4 % 8; rw [e0, hu]; omega
  | ⟨1, _⟩ => show win0_0.index t (1 : Fin 3) * 4096 + 1 * l.val = l.val; rw [e1]; omega
  | ⟨2, _⟩ => show win0_0.index t (2 : Fin 3) * 768 + 1 * k.val = k.val; rw [e2]; omega

theorem object_blk (c : Dev nD) (t : Fin cfg0.N) (u : Fin 1) (r : Fin 256) (e : Fin 512) :
    (iblk m c 1 t : FVec Ideal S1x256x512 .f32) (ix3 u r e)
      = (m ((c : Thread nD τ).loc main_arg0)) (ix3 (batchOf t.val) (objRow t.val r) e) := by
  obtain ⟨-, -, -, e0, e1, e2, -⟩ := idx_facts t
  have hN : t.val < 32 := lt_of_lt_of_eq t.isLt (show cfg0.N = 32 from N_0)
  have hu : u.val = 0 := by omega
  unfold iblk
  rw [View.read_apply]
  show V m c main_arg0 _ = _
  rw [V_main_arg0]
  congr 1
  funext a
  apply Fin.ext
  match a with
  | ⟨0, _⟩ => show win0_1.index t (0 : Fin 3) * 1 + 1 * u.val = t.val / 4 % 8; rw [e0, hu]; omega
  | ⟨1, _⟩ => show win0_1.index t (1 : Fin 3) * 256 + 1 * r.val = t.val % 4 * 256 + r.val; rw [e1]; omega
  | ⟨2, _⟩ => show win0_1.index t (2 : Fin 3) * 512 + 1 * e.val = e.val; rw [e2]; omega

theorem weight_blk (c : Dev nD) (t : Fin cfg0.N) (k : Fin 768) (d : Fin 512) :
    (iblk m c 2 t : FVec Ideal S768x512 .f32) (ix2 k d) = (m ((c : Thread nD τ).loc main_arg2)) (ix2 k d) := by
  obtain ⟨-, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 768 + 1 * k.val = k.val; rw [e0]; omega
  | ⟨1, _⟩ => show win0_2.index t (1 : Fin 2) * 512 + 1 * d.val = d.val; rw [e1]; omega

theorem bias_blk (c : Dev nD) (t : Fin cfg0.N) (d : Fin 512) :
    (iblk m c 3 t : FVec Ideal S512 .f32) (ix1 d) = (m ((c : Thread nD τ).loc main_arg3)) (ix1 d) := by
  obtain ⟨-, -, -, -, -, -, -, -, e0, -⟩ := idx_facts t
  unfold iblk
  rw [View.read_apply]
  show V m c main_arg3 _ = _
  rw [V_main_arg3]
  congr 1
  funext a
  apply Fin.ext
  match a with
  | ⟨0, _⟩ => show win0_3.index t (0 : Fin 1) * 512 + 1 * d.val = d.val; rw [e0]; omega

/-! ## The carried scratch -/

/-- The projected caption rows of point `n`'s batch, as the scratch's contents. -/
def projected (c : Dev nD) (n : ℕ) : FVec Ideal S4096x512 .f32 :=
  fun j => keys (m ((c : Thread nD τ).loc main_arg1)) (m ((c : Thread nD τ).loc main_arg2)) (m ((c : Thread nD τ).loc main_arg3)) (batchOf n) (j 0) (j 1)

/-- What the first store writes from the blocks of ANY point is the projected rows of that point's batch. -/
theorem projected_of_blocks (c : Dev nD) (t : Fin cfg0.N) :
    k0_pay1 (F := Ideal) (iblk m c 0 t) (iblk m c 2 t) (iblk m c 3 t) = projected m c t.val := by
  funext j
  obtain ⟨l, d, rfl⟩ : ∃ (l : Fin 4096) (d : Fin 512), j = ix2 l d := ⟨j 0, j 1, eq_ix2 j⟩
  refine (projected_apply (iblk m c 0 t) (iblk m c 2 t) (iblk m c 3 t) l d).trans ?_
  show _ = keys (m ((c : Thread nD τ).loc main_arg1)) (m ((c : Thread nD τ).loc main_arg2)) (m ((c : Thread nD τ).loc main_arg3)) (batchOf t.val) l d
  unfold keys
  rw [bias_blk]
  refine congrArg (· + _) (Finset.sum_congr rfl fun k _ => ?_)
  rw [caption_blk, weight_blk]

/-- Points of one batch have one batch's projected rows. -/
theorem projected_congr (c : Dev nD) (n n' : ℕ) (h : n / 4 = n' / 4) : projected m c n = projected m c n' := by
  have e : batchOf n = batchOf n' := Fin.ext (by show n / 4 % 8 = n' / 4 % 8; rw [h])
  unfold projected
  rw [e]

/-- After every point the scratch holds the projected caption rows of the point's batch. -/
theorem scratch_eq (c : Dev nD) : ∀ (n : ℕ) (h : n < cfg0.N), (outsAt0 m c n h).2 = projected m c n := by
  intro n
  induction n using Nat.strong_induction_on with
  | _ n ih =>
    intro h
    by_cases h0 : n % 4 = 0
    · rw [outsAt0_A m c ⟨n, h⟩ h0]
      dsimp only
      exact (scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        (ms0_3 ⟨n, h⟩) (hs0_3 ⟨n, h⟩) (ms0_4 ⟨n, h⟩) (hs0_4 ⟨n, h⟩) scM0_0 (Memref.isWhole_whole _) ((hcond0_0 ⟨n, h⟩).mpr h0)
        (iblk m c 0 ⟨n, h⟩) (iblk m c 1 ⟨n, h⟩) (iblk m c 2 ⟨n, h⟩) (iblk m c 3 ⟨n, h⟩)).trans (projected_of_blocks m c ⟨n, h⟩)
    · rw [outsAt0_B m c ⟨n, h⟩ h0]
      dsimp only
      unfold sout0_B_0
      rw [ih (n - 1) (by omega), projected_congr m c (n - 1) n (by omega)]

/-! ## The output tile of every point -/

/-- After point `t` the output's staging buffer holds the point's object tile attended over the projected caption
    rows of the point's batch. -/
theorem tile_eq (c : Dev nD) (t : Fin cfg0.N) :
    (outsAt0 m c t.val t.isLt).1 = k0_pay2 (F := Ideal) (iblk m c 1 t) (projected m c t.val) := by
  by_cases h0 : t.val % 4 = 0
  · rw [outsAt0_A m c t h0]
    dsimp only
    refine (out_A c (grid0.coords t) (ms0_0 t) (hs0_0 t) (ms0_1 t) (hs0_1 t) (ms0_2 t) (hs0_2 t)
      (ms0_3 t) (hs0_3 t) (ms0_4 t) (hs0_4 t) scM0_0 (Memref.isWhole_whole _) ((hcond0_0 t).mpr h0)
      (iblk m c 0 t) (iblk m c 1 t) (iblk m c 2 t) (iblk m c 3 t)).trans ?_
    exact congrArg (k0_pay2 (F := Ideal) (iblk m c 1 t)) (projected_of_blocks m c t)
  · rw [outsAt0_B m c t h0]
    dsimp only
    refine (out_B c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2).trans ?_
    refine congrArg (k0_pay2 (F := Ideal) (iblk m c 1 t)) ?_
    rw [scratch_eq m c (t.val - 1), projected_congr m c (t.val - 1) t.val (by omega)]

end Cert.KernelIdeal.Blocks

end
-- ==== Proof.Whole.lean ====
/-
  The kernel's result array after the run, as one function of the arguments.

  Point `t` writes back the 256 object rows of its tile, rows `256 · (t % 4) …` of batch `t / 4`: entry `(r, d)` of what
  it writes is object row `256 · (t % 4) + r` of that batch attended over the batch's projected caption rows, which is
  `Attention.result` of the arguments at `(t / 4, 256 · (t % 4) + r, d)` (`flushed_eq`). The 32 tiles cover the
  `[8, 1024, 512]` array — entry `(b, n, d)` lies in the tile of point `4 b + n / 256` (`cover`) — so the array ends
  holding `Attention.result` (`final`), and the run is re-posted with it (`run`).
-/
import proofs.«160325_j6957847019570_2_alg».proof.Proof.Blocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Payload Cert.KernelIdeal.Blocks
open Idealize.ShloMosaic.ValueIdx Cert.Attention

variable (m : (ℓ : Loc nD τ sig) → Buf (Elt Ideal) ℓ) (ρ : Dev nD → PrngReg)

/-- The attention of the launch contents of the four arguments. -/
abbrev attention (c : Dev nD) : S8x1024x512.Idx → EReal :=
  result (m ((c : Thread nD τ).loc main_arg0)) (m ((c : Thread nD τ).loc main_arg1)) (m ((c : Thread nD τ).loc main_arg2)) (m ((c : Thread nD τ).loc main_arg3))

/-- What point `t` writes back is its tile of the attention of the arguments. -/
theorem flushed_eq (c : Dev nD) (t : Fin cfg0.N) :
    (dats m 0 c).flushed 4 t = ((cfg0.win 4).blk t).view.read (Elt Ideal) (attention m c) := by
  rw [flushed4, tile_eq]
  obtain ⟨-, -, -, -, -, -, -, -, -, e0, e1, e2⟩ := idx_facts t
  have hN : t.val < 32 := lt_of_lt_of_eq t.isLt (show cfg0.N = 32 from N_0)
  funext y
  obtain ⟨u, r, d, rfl⟩ : ∃ (u : Fin 1) (r : Fin 256) (d : Fin 512), y = ix3 u r d := ⟨y 0, y 1, y 2, eq_ix3 y⟩
  have hu : u.val = 0 := by omega
  rw [View.read_apply]
  have hemb : ((cfg0.win 4).blk t).view.emb (ix3 u r d) = ix3 (batchOf t.val) (objRow t.val r) d := by
    funext a
    apply Fin.ext
    match a with
    | ⟨0, _⟩ => show win0_4.index t (0 : Fin 3) * 1 + 1 * u.val = t.val / 4 % 8; rw [e0, hu]; omega
    | ⟨1, _⟩ => show win0_4.index t (1 : Fin 3) * 256 + 1 * r.val = t.val % 4 * 256 + r.val; rw [e1]; omega
    | ⟨2, _⟩ => show win0_4.index t (2 : Fin 3) * 512 + 1 * d.val = d.val; rw [e2]; omega
  rw [hemb]
  show k0_pay2 (F := Ideal) (iblk m c 1 t) (projected m c t.val) (ix3 u r d)
      = attend (fun e => (m ((c : Thread nD τ).loc main_arg0)) (ix3 (batchOf t.val) (objRow t.val r) e))
          (keys (m ((c : Thread nD τ).loc main_arg1)) (m ((c : Thread nD τ).loc main_arg2)) (m ((c : Thread nD τ).loc main_arg3)) (batchOf t.val)) d
  rw [attended_apply]
  have hq : (fun e => (iblk m c 1 t : FVec Ideal S1x256x512 .f32) (ix3 (0 : Fin 1) r e))
      = fun e => (m ((c : Thread nD τ).loc main_arg0)) (ix3 (batchOf t.val) (objRow t.val r) e) :=
    funext fun e => object_blk m c t 0 r e
  rw [hq]
  rfl

/-- An entry of the array is in point `t`'s tile iff each coordinate is in the tile's range on its axis. -/
theorem mem_blk (t : Fin cfg0.N) (i : S8x1024x512.Idx) :
    i ∈ ((cfg0.win 4).blk t).view.set ↔ ∀ a : Fin 3, win0_4.index t a * S1x256x512.size a ≤ (i a).val
      ∧ (i a).val < win0_4.index t a * S1x256x512.size a + S1x256x512.size a := by
  show i ∈ ((View.whole main_v1).slice (win0_4.rect t)).set ↔ _
  rw [View.set_slice_whole, Rect.mem_set_unit]
  exact Iff.rfl

/-- Every entry of the array is in some point's tile: `(b, n, d)` in that of point `4 b + n / 256`. -/
theorem cover (i : S8x1024x512.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 512 := (i 2).isLt
  have hN : cfg0.N = 32 := N_0
  obtain ⟨t, ht⟩ : ∃ t : Fin cfg0.N, t.val = 4 * (i 0).val + (i 1).val / 256 := ⟨⟨4 * (i 0).val + (i 1).val / 256, by omega⟩, rfl⟩
  obtain ⟨-, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 256 ≤ (i 1).val ∧ (i 1).val < win0_4.index t (1 : Fin 3) * 256 + 256; rw [e1, ht]; omega
  | ⟨2, _⟩ => show win0_4.index t (2 : Fin 3) * 512 ≤ (i 2).val ∧ (i 2).val < win0_4.index t (2 : Fin 3) * 512 + 512; rw [e2]; omega

/-- So the result array ends holding the attention of the arguments. -/
theorem final (c : Dev nD) : (dats m 0 c).arrAt 4 cfg0.N = attention m c :=
  (dats m 0 c).arrAt_eq_of_cover 4 (attention m c) (fun t _ => flushed_eq m c t) cover

/-- The run, read: the result array at the attention of the arguments, the arguments unchanged. -/
theorem run : θ_run defs (onTc (τ := τ) (main (F := Ideal))) ⟨m, fun _ => 0, ρ⟩ fun r => ∀ c : Dev nD,
      r.2.mem ((c : Thread nD τ).loc main_v1) = attention m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.Reference.lean ====
/-
  The reference program's result is `Attention.result` of its four arguments, entry by entry.

  Read one operation at a time: the first contraction plus the broadcast bias, re-laid from `[8, 4, 1024, 512]` to
  `[8, 4096, 512]` (row `l` of the flattened rows is row `l % 1024` of caption `l / 1024`), are the projected caption
  rows (`keys_eq`); the batched contraction with the object rows gives the scores (`scores_eq`); their reduction by
  `max` from −∞, and once more the maximum with −∞, is the largest score (`peak_eq`: the second maximum changes
  nothing, the fold being above its start); subtraction and exponential give the weights (`weights_eq`), the
  reduction by `+` from zero their sum (`mass_eq`), the quotient the shares (`shares_eq`), and the last contraction the
  attended rows (`result_eq`).
-/
import proofs.«160325_j6957847019570_2_alg».proof.Proof.Gen.ReferenceIdeal.Read
import proofs.«160325_j6957847019570_2_alg».proof.Proof.Attention
import proofs.«160325_j6957847019570_2_alg».proof.Proof.LibKeepdims
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.Keepdims Cert.Attention

variable (x0 : (⟨S8x1024x512, .f32⟩ : BufTy).Contents (Elt Ideal)) (x1 : (⟨S8x4x1024x768, .f32⟩ : BufTy).Contents (Elt Ideal)) (x2 : (⟨S768x512, .f32⟩ : BufTy).Contents (Elt Ideal)) (x3 : (⟨S512, .f32⟩ : BufTy).Contents (Elt Ideal))

/-- Position `(b, l, d)` of the flattened rows is position `(b, l / 1024, l % 1024, d)` of the captions' rows. -/
theorem flat_idx (b : Fin 8) (l : Fin 4096) (d : Fin 512) :
    idx_main_v4 (ix3 b l d) = ix4 b (captionOf l) (rowOf l) d := by
  have hb := b.isLt; have hl := l.isLt; have hd := d.isLt
  funext a
  apply Fin.ext
  match a with
  | ⟨0, _⟩ => show ((b.val * 4096 + l.val) * 512 + d.val) / 2097152 = b.val; omega
  | ⟨1, _⟩ => show ((b.val * 4096 + l.val) * 512 + d.val) / 524288 % 4 = l.val / 1024; omega
  | ⟨2, _⟩ => show ((b.val * 4096 + l.val) * 512 + d.val) / 512 % 1024 = l.val % 1024; omega
  | ⟨3, _⟩ => show ((b.val * 4096 + l.val) * 512 + d.val) % 512 = d.val; omega

/-- The projected caption rows. -/
theorem keys_eq (b : Fin 8) (l : Fin 4096) (d : Fin 512) :
    val_main_v4 (F := Ideal) x1 x2 x3 (ix3 b l d) = keys x1 x2 x3 b l d := by
  rw [val_main_v4_apply, flat_idx, val_main_v3_apply, val_main_v0_apply, val_main_v2_apply, val_main_v1_apply]
  have e1 : ∀ k : Fin 768, lidx_main_v0 (ix4 b (captionOf l) (rowOf l) d) k = ix4 b (captionOf l) (rowOf l) k := fun k =>
    funext fun a => Fin.ext (by match a with | ⟨0, _⟩ => rfl | ⟨1, _⟩ => rfl | ⟨2, _⟩ => rfl | ⟨3, _⟩ => rfl)
  have e2 : ∀ k : Fin 768, ridx_main_v0 (ix4 b (captionOf l) (rowOf l) d) k = ix2 k d := fun k =>
    funext fun a => Fin.ext (by match a with | ⟨0, _⟩ => rfl | ⟨1, _⟩ => rfl)
  have e3 : idx_main_v1 (idx_main_v2 (ix4 b (captionOf l) (rowOf l) d)) = ix1 d :=
    funext fun a => Fin.ext (by match a with | ⟨0, _⟩ => rfl)
  simp only [e1, e2, e3]
  rfl

/-- The scores of object row `(b, n)` against batch `b`'s projected caption rows. -/
theorem scores_eq (b : Fin 8) (n : Fin 1024) (l : Fin 4096) :
    val_main_v5 (F := Ideal) x0 x1 x2 x3 (ix3 b n l) = scores (fun e => x0 (ix3 b n e)) (keys x1 x2 x3 b) l := by
  rw [val_main_v5_apply]
  unfold scores
  refine Finset.sum_congr rfl fun k _ => ?_
  have e1 : lidx_main_v5 (ix3 b n l) k = ix3 b n k :=
    funext fun a => Fin.ext (by match a with | ⟨0, _⟩ => rfl | ⟨1, _⟩ => rfl | ⟨2, _⟩ => rfl)
  have e2 : ridx_main_v5 (ix3 b n l) k = ix3 b l k :=
    funext fun a => Fin.ext (by match a with | ⟨0, _⟩ => rfl | ⟨1, _⟩ => rfl | ⟨2, _⟩ => rfl)
  rw [e1, e2, keys_eq]

theorem reduces_d2 : S8x1024x4096.Reduces [2] S8x1024 := by decide

theorem lift_eq (b : Fin 8) (n : Fin 1024) (l : Fin 4096) : reduces_d2.lift (ix2 b n) l = ix3 b n l :=
  funext fun a => Fin.ext (by match a with | ⟨0, _⟩ => rfl | ⟨1, _⟩ => rfl | ⟨2, _⟩ => rfl)

/-- The largest score of object row `(b, n)`: the reduction by `max` from −∞. -/
theorem rowmax_eq (b : Fin 8) (n : Fin 1024) :
    val_main_v6 (F := Ideal) x0 x1 x2 x3 (ix2 b n) = peak (scores (fun e => x0 (ix3 b n e)) (keys x1 x2 x3 b)) := by
  unfold val_main_v6
  refine (Host.reduce_eq_fold_single (FloatOps.maximumf (F := Ideal) (φ := .f32)) (val_main_v5 (F := Ideal) x0 x1 x2 x3)
    (val_main_cst (F := Ideal)) reducesTo_S8x1024x4096_S8x1024_d2 reduces_d2 h_S_ (ix2 b n)).trans ?_
  have e : (val_main_v5 (F := Ideal) x0 x1 x2 x3 ∘ reduces_d2.lift (ix2 b n))
      = scores (fun e => x0 (ix3 b n e)) (keys x1 x2 x3 b) :=
    funext fun l => (congrArg (val_main_v5 (F := Ideal) x0 x1 x2 x3) (lift_eq b n l)).trans (scores_eq x0 x1 x2 x3 b n l)
  exact congrArg (fun f : Fin 4096 → EReal => Finset.univ.fold max lowest f) e

/-- … and the maximum of that with −∞ once more is the same. -/
theorem peak_eq (b : Fin 8) (n : Fin 1024) :
    val_main_v8 (F := Ideal) x0 x1 x2 x3 (ix2 b n) = peak (scores (fun e => x0 (ix3 b n e)) (keys x1 x2 x3 b)) := by
  rw [val_main_v8_apply, val_main_v7_apply, rowmax_eq]
  exact max_fold_max_self _ _ _

/-- The weights: exponentials of the scores less the largest. -/
theorem weights_eq (b : Fin 8) (n : Fin 1024) (l : Fin 4096) :
    val_main_v12 (F := Ideal) x0 x1 x2 x3 (ix3 b n l) = weights (scores (fun e => x0 (ix3 b n e)) (keys x1 x2 x3 b)) l := by
  rw [val_main_v12_apply, val_main_v11_apply, val_main_v10_apply, val_main_v9_apply]
  have e : idx_main_v9 (idx_main_v10 (ix3 b n l)) = ix2 b n :=
    funext fun a => Fin.ext (by match a with | ⟨0, _⟩ => rfl | ⟨1, _⟩ => rfl)
  rw [e, peak_eq, scores_eq]
  rfl

/-- Their sum over the caption rows, from zero. -/
theorem mass_eq (b : Fin 8) (n : Fin 1024) :
    val_main_v13 (F := Ideal) x0 x1 x2 x3 (ix2 b n)
      = ∑ l : Fin 4096, weights (scores (fun e => x0 (ix3 b n e)) (keys x1 x2 x3 b)) l := by
  rw [val_main_v13_apply]
  show Ideal.ofBits .f32 0x00000000#32 + _ = _
  rw [Ideal.ofBits_zero_f32, zero_add]
  refine Finset.sum_congr rfl fun l _ => ?_
  have e : idx_main_v13 (ix2 b n) l = ix3 b n l :=
    funext fun a => Fin.ext (by match a with | ⟨0, _⟩ => rfl | ⟨1, _⟩ => rfl | ⟨2, _⟩ => rfl)
  rw [e, weights_eq]

/-- The shares: each weight over the sum. -/
theorem shares_eq (b : Fin 8) (n : Fin 1024) (l : Fin 4096) :
    val_main_v16 (F := Ideal) x0 x1 x2 x3 (ix3 b n l)
      = Ideal.div (weights (scores (fun e => x0 (ix3 b n e)) (keys x1 x2 x3 b)) l)
          (∑ l' : Fin 4096, weights (scores (fun e => x0 (ix3 b n e)) (keys x1 x2 x3 b)) l') := by
  rw [val_main_v16_apply, val_main_v15_apply, val_main_v14_apply]
  have e : idx_main_v14 (idx_main_v15 (ix3 b n l)) = ix2 b n :=
    funext fun a => Fin.ext (by match a with | ⟨0, _⟩ => rfl | ⟨1, _⟩ => rfl)
  rw [e, mass_eq, weights_eq]
  rfl

/-- The reference's result array. -/
theorem result_eq : val_main_v17 (F := Ideal) x0 x1 x2 x3 = result x0 x1 x2 x3 := by
  funext i
  obtain ⟨b, n, d, rfl⟩ : ∃ (b : Fin 8) (n : Fin 1024) (d : Fin 512), i = ix3 b n d := ⟨i 0, i 1, i 2, eq_ix3 i⟩
  rw [val_main_v17_apply]
  show _ = attend (fun e => x0 (ix3 b n e)) (keys x1 x2 x3 b) d
  unfold attend
  refine Finset.sum_congr rfl fun l _ => ?_
  have e1 : lidx_main_v17 (ix3 b n d) l = ix3 b n l :=
    funext fun a => Fin.ext (by match a with | ⟨0, _⟩ => rfl | ⟨1, _⟩ => rfl | ⟨2, _⟩ => rfl)
  have e2 : ridx_main_v17 (ix3 b n d) l = ix3 b l d :=
    funext fun a => Fin.ext (by match a with | ⟨0, _⟩ => rfl | ⟨1, _⟩ => rfl | ⟨2, _⟩ => rfl)
  rw [e1, e2, shares_eq, keys_eq]

end Cert.ReferenceIdeal.RefValue

end
-- ==== Proof.lean ====
/-
  The certificate of a cross-attention kernel against its reference, on the extended reals.

  Both programs compute, for each of 8 batches, the attention of 1024 object rows over 4096 caption rows projected
  by a linear map: `out[b, n, ·] = ∑ₗ softmaxₗ(obj[b, n, ·] · t[b, l, ·]) · t[b, l, ·]` with
  `t[b, l, ·] = text[b, l / 1024, l % 1024, ·] · W + bias` (Proof/Attention.lean states it as one function of the
  arguments). The reference computes it array by array (Proof/Reference.lean reads its operations one at a time).
  The kernel walks a grid of 8 × 4 points, a tile of 256 object rows each; the first tile of a batch projects the
  batch's caption rows into a scratch buffer the other three tiles read back (Proof/Stores.lean: what each store
  leaves; Proof/Payload.lean: the stored values entry by entry; Proof/Blocks.lean: the scratch holds the right
  batch's rows at every point; Proof/Whole.lean: the 32 tiles make up the result array).

  The two sides are the same composition of the same operations on the extended reals — sums, a fold of `max` from
  −∞, a difference, an exponential, a quotient — differing only in how sums are indexed and in the reference taking
  the maximum with −∞ a second time, so the equality needs no finiteness of the inputs. Changes of float format in
  the kernel are the identity there, and the idealization rewrote nothing (its conjunct is `True`).
-/
import proofs.«160325_j6957847019570_2_alg».proof.Defs
import proofs.«160325_j6957847019570_2_alg».proof.Proof.Gen.Kernel
import proofs.«160325_j6957847019570_2_alg».proof.Proof.Gen.Kernel.Skeleton
import proofs.«160325_j6957847019570_2_alg».proof.Proof.Gen.Kernel.Launch
import proofs.«160325_j6957847019570_2_alg».proof.Proof.Gen.Kernel.Points
import proofs.«160325_j6957847019570_2_alg».proof.Proof.Gen.Kernel.Frame
import proofs.«160325_j6957847019570_2_alg».proof.Proof.Gen.KernelIdeal
import proofs.«160325_j6957847019570_2_alg».proof.Proof.Gen.KernelIdeal.Skeleton
import proofs.«160325_j6957847019570_2_alg».proof.Proof.Gen.KernelIdeal.Launch
import proofs.«160325_j6957847019570_2_alg».proof.Proof.Gen.KernelIdeal.Points
import proofs.«160325_j6957847019570_2_alg».proof.Proof.Gen.KernelIdeal.Frame
import proofs.«160325_j6957847019570_2_alg».proof.Proof.Gen.ReferenceIdeal
import proofs.«160325_j6957847019570_2_alg».proof.Proof.Gen.Pre_finite_inputs
import proofs.«160325_j6957847019570_2_alg».proof.Proof.Gen.KernelIdeal.Value
import proofs.«160325_j6957847019570_2_alg».proof.Proof.Gen.ReferenceIdeal.Run
import proofs.«160325_j6957847019570_2_alg».proof.Proof.Gen.ReferenceIdeal.Read
import proofs.«160325_j6957847019570_2_alg».proof.Proof.Whole
import proofs.«160325_j6957847019570_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the attention of the arguments in their result
    arrays: the kernel's tiles make it up (`Whole.run`), and the reference's operations compose to it
    (`RefValue.result_eq`). -/
theorem algebraic : Cert.algebraic_KernelIdeal_ReferenceIdeal := by
  intro m ρ m' ρ' _ hagree
  refine ⟨fun c => Cert.KernelIdeal.Whole.attention m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
